-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S4096 .f32) (main_arg8 : FVec F S4096x1024 .f32) (main_arg9 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024 .f32) (main_arg5 : FVec F S1024 .f32) (main_arg6 : FVec F S1024x4096 .f32) (main_arg7 : FVec F S4096 .f32) (main_arg8 : FVec F S4096x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x8192x1024 .f32) (main_arg1 : FVec F S4x8192x1024 .f32) (main_arg2 : FVec F S4x8192x1024 .f32) (main_arg3 : FVec F S1024 .f32) (main_arg4 : FVec F S1024 .f32) (main_arg5 : FVec F S1024 .f32) (main_arg6 : FVec F S1024x4096 .f32) (main_arg7 : FVec F S4096 .f32) (main_arg8 : FVec F S4096x1024 .f32) (main_arg9 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x1024 .f32 := Host.absf main_arg1
  let main_cst_0 : FVec F S_ .f32 := constant S_ .f32 0x7F800000#32
  let main_v5 : FVec F S4x8192x1024 .f32 := broadcastInDim S4x8192x1024 ![] bcast_S_S4x8192x1024 main_cst_0
  let main_v6 : IVec S4x8192x1024 1 := cmpf .olt main_v4 main_v5
  let main_c_1 : IVec S_ 1 := constantI S_ 1 1#1
  let main_v7 : IVec S_ 1 := (fun x v => Host.reduce IntOp.andi x v reducesTo_S4x8192x1024_S_d0_1_2 h_S_) main_v6 main_c_1
  let main_v8 : IVec S_ 1 := andi main_v3 main_v7
  let main_v9 : FVec F S4x8192x1024 .f32 := Host.absf main_arg2
  let main_cst_2 : FVec F S_ .f32 := constant S_ .f32 0x7F800000#32
  let main_v10 : FVec F S4x8192x1024 .f32 := broadcastInDim S4x8192x1024 ![] bcast_S_S4x8192x1024 main_cst_2
  let main_v11 : IVec S4x8192x1024 1 := cmpf .olt main_v9 main_v10
  let main_c_3 : IVec S_ 1 := constantI S_ 1 1#1
  let main_v12 : IVec S_ 1 := (fun x v => Host.reduce IntOp.andi x v reducesTo_S4x8192x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S4x8192x1024 : Shape := ⟨3, ![4, 8192, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S32768x1024 : Shape := ⟨2, ![32768, 1024]⟩
abbrev S1x1024 : Shape := ⟨2, ![1, 1024]⟩
abbrev S1x4096 : Shape := ⟨2, ![1, 4096]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 21
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S32768x1024, .f32⟩
  | .hbm, ⟨11, _⟩ => ⟨S32768x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x4096, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S32768x1024, .f32⟩
  | .hbm, ⟨20, _⟩ => ⟨S4x8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S1x4096, .f32⟩
  | .local _ .vmem, ⟨9, _⟩ => ⟨S4096x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x8192x1024_S32768x1024 : S4x8192x1024.ShapeCasts S32768x1024
  shapeCasts_S1024_S1x1024 : S1024.ShapeCasts S1x1024
  shapeCasts_S4096_S1x4096 : S4096.ShapeCasts S1x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S32768x1024_S4x8192x1024 : S32768x1024.ShapeCasts S4x8192x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x1024.size a ≤ S4096x1024.size a
  hwx0_7 : ∀ i : grid0.Coords, EltTy.bits .bf16 = 32 ∨ (Rect.block (s := S4096x1024) S4096x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S32768x1024.size a
  hwx0_9 : ∀ i : grid0.Coords, EltTy.bits .f32 = 32 ∨ (Rect.block (s := S32768x1024) S256x1024.size (cc0_transform_9 i) (hinb0_9 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S4096x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S1x1x1024 : Shape := ⟨3, ![1, 1, 1024]⟩
abbrev S_ : Shape := ⟨0, ![]⟩
abbrev S4x8192 : Shape := ⟨2, ![4, 8192]⟩
abbrev S4x8192x1 : Shape := ⟨3, ![4, 8192, 1]⟩
abbrev S4x8192x4096 : Shape := ⟨3, ![4, 8192, 4096]⟩
abbrev S1x1x4096 : Shape := ⟨3, ![1, 1, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S1x1x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x8192x1, .f32⟩
  | .hbm, ⟨35, _⟩ => ⟨S4x8192x1024, .f32⟩
  | .hbm, ⟨36, _⟩ => ⟨S4x8192x1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S1x1x1024, .f32⟩
  | .hbm, ⟨41, _⟩ => ⟨S4x8192x1024, .f32⟩
  | .hbm, ⟨42, _⟩ => ⟨S4x8192x1024, .f32⟩
  | .hbm, ⟨43, _⟩ => ⟨S4x8192x4096, .f32⟩
  | .hbm, ⟨44, _⟩ => ⟨S1x1x4096, .f32⟩
  | .hbm, ⟨45, _⟩ => ⟨S4x8192x4096, .f32⟩
  | .hbm, ⟨46, _⟩ => ⟨S4x8192x4096, .f32⟩
  | .hbm, ⟨47, _⟩ => ⟨S4x8192x4096, .f32⟩
  | .hbm, ⟨48, _⟩ => ⟨S4x8192x4096, .f32⟩
  | .hbm, ⟨49, _⟩ => ⟨S_, .f32⟩
  | .hbm, ⟨50, _⟩ => ⟨S4x8192x4096, .f32⟩
  | .hbm, ⟨51, _⟩ => ⟨S4x8192x4096, .f32⟩
  | .hbm, ⟨52, _⟩ => ⟨S4x8192x4096, .f32⟩
  | .hbm, ⟨53, _⟩ => ⟨S_, .f32⟩
  | .hbm, ⟨54, _⟩ => ⟨S4x8192x4096, .f32⟩
  | .hbm, ⟨55, _⟩ => ⟨S4x8192x4096, .f32⟩
  | .hbm, ⟨56, _⟩ => ⟨S4x8192x4096, .f32⟩
  | .hbm, ⟨57, _⟩ => ⟨S_, .f32⟩
  | .hbm, ⟨58, _⟩ => ⟨S4x8192x4096, .f32⟩
  | .hbm, ⟨59, _⟩ => ⟨S4x8192x4096, .f32⟩
  | .hbm, ⟨60, _⟩ => ⟨S_, .f32⟩
  | .hbm, ⟨61, _⟩ => ⟨S4x8192x4096, .f32⟩
  | .hbm, ⟨62, _⟩ => ⟨S4x8192x4096, .f32⟩
  | .hbm, ⟨63, _⟩ => ⟨S4x8192x4096, .f32⟩
  | .hbm, ⟨64, _⟩ => ⟨S4x8192x1024, .f32⟩
  | .hbm, ⟨65, _⟩ => ⟨S1x1x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S4096_S1x1x4096_2 : S4096.BroadcastsInDim S1x1x4096 (![2] : Fin 1 → Fin S1x1x4096.rank)
  bcast_S1x1x4096_S4x8192x4096_0_1_2 : S1x1x4096.BroadcastsInDim S4x8192x4096 (![0, 1, 2] : Fin 3 → Fin S4x8192x4096.rank)
  bcast_S_S4x8192x4096 : S_.BroadcastsInDim S4x8192x4096 (![] : Fin 0 → Fin S4x8192x4096.rank)
  dot_S4x8192x1024_S1024x4096_S4x8192x4096_2_0_01_1_n_n_wf : DotDims.WF S4x8192x1024 S1024x4096 S4x8192x4096 [2] [0] [0, 1] [1] [] []
  dot_S4x8192x4096_S4096x1024_S4x8192x1024_2_0_01_1_n_n_wf : DotDims.WF S4x8192x4096 S4096x1024 S4x8192x1024 [2] [0] [0, 1] [1] [] []

variable [Facts₀]

def dot_S4x8192x1024_S1024x4096_S4x8192x4096_2_0_01_1_n_n : DotDims S4x8192x1024 S1024x4096 S4x8192x4096 where
  lhsContracting := [2]
  rhsContracting := [0]
  lhsNonContracting := [0, 1]
  rhsNonContracting := [1]
  lhsBatch := []
  rhsBatch := []
  wf := dot_S4x8192x1024_S1024x4096_S4x8192x4096_2_0_01_1_n_n_wf
def dot_S4x8192x4096_S4096x1024_S4x8192x1024_2_0_01_1_n_n : DotDims S4x8192x4096 S4096x1024 S4x8192x1024 where
  lhsContracting := [2]
  rhsContracting := [0]
  lhsNonContracting := [0, 1]
  rhsNonContracting := [1]
  lhsBatch := []
  rhsBatch := []
  wf := dot_S4x8192x4096_S4096x1024_S4x8192x1024_2_0_01_1_n_n_wf

class Facts : Prop extends Facts₀ where

variable [Facts]
-- ==== Proof.Spec.lean ====
/-
  The fused transformer feed-forward block, one row at a time, on the extended reals.

  A row of the result depends on the same row of the two streamed arrays and on all of the parameters:
  with `v = x + bias + r` the pre-normalisation sum,
    mean v            = (∑ h, v h) / 1024
    ctr v h           = v h - mean v
    ln v h            = ctr v h * rsqrt (mean (ctr v)² + ε) * nw h + nb h
    hid u i           = gelu (∑ h, u h * W1 h i + b1 i)          (tanh form of gelu)
    row h             = ∑ i, hid (ln v) i * W2 i h + b2 h + v h
  Every literal is kept as the word both programs print; none is evaluated.
-/
import Idealize.ShloMosaic.PureOps.Ideal
import Idealize.ShloMosaic.Lib.ValueIdx

noncomputable section

open scoped BigOperators

namespace Cert.Mlp

open Idealize.ShloMosaic

/-- The pre-normalisation sum of a row: input plus bias plus residual. -/
def pre (x r bias : Fin 1024 → EReal) : Fin 1024 → EReal := fun h => x h + bias h + r h

/-- The mean of a row of 1024 entries: the sum divided by the word of 1024. -/
def mean (v : Fin 1024 → EReal) : EReal := Ideal.div (∑ h : Fin 1024, v h) (Ideal.ofBits .f32 0x44800000#32)

/-- A row less its mean. -/
def ctr (v : Fin 1024 → EReal) : Fin 1024 → EReal := fun h => v h - mean v

/-- Layer normalisation of a row with scale `nw` and shift `nb`. -/
def ln (v nw nb : Fin 1024 → EReal) : Fin 1024 → EReal := fun h =>
  ctr v h * Ideal.rsqrt (mean (fun k => ctr v k * ctr v k) + Ideal.ofBits .f32 0x3727C5AC#32) * nw h + nb h

/-- The tanh form of gelu, with the cube taken as `z * (z * z)`. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The hidden layer of a normalised row `u`. -/
def hid (u : Fin 1024 → EReal) (W1 : Fin 1024 → Fin 4096 → EReal) (b1 : Fin 4096 → EReal) : Fin 4096 → EReal :=
  fun i => gelu (∑ h : Fin 1024, u h * W1 h i + b1 i)

/-- One row of the result. -/
def row (x r bias nw nb : Fin 1024 → EReal) (W1 : Fin 1024 → Fin 4096 → EReal) (b1 : Fin 4096 → EReal)
    (W2 : Fin 4096 → Fin 1024 → EReal) (b2 : Fin 1024 → EReal) : Fin 1024 → EReal := fun h =>
  ∑ i : Fin 4096, hid (ln (pre x r bias) nw nb) W1 b1 i * W2 i h + b2 h + pre x r bias h

/-- The cube of gelu's argument in either order of its factors. -/
theorem cube_comm (z : EReal) : z * z * z = z * (z * z) := mul_comm _ _

/-- The whole result on the `[4, 8192, 1024]` layout: entry `(b, s, h)` is the row function of row `(b, s)` of the
    two streamed arrays, at column `h`. -/
def result (x0 x1 : (⟨3, ![4, 8192, 1024]⟩ : Shape).Idx → EReal) (x3 x4 x5 : (⟨1, ![1024]⟩ : Shape).Idx → EReal)
    (x6 : (⟨2, ![1024, 4096]⟩ : Shape).Idx → EReal) (x7 : (⟨1, ![4096]⟩ : Shape).Idx → EReal)
    (x8 : (⟨2, ![4096, 1024]⟩ : Shape).Idx → EReal) (x9 : (⟨1, ![1024]⟩ : Shape).Idx → EReal) :
    (⟨3, ![4, 8192, 1024]⟩ : Shape).Idx → EReal := fun i =>
  row (fun k => x0 (ValueIdx.ix3 (i 0) (i 1) k)) (fun k => x1 (ValueIdx.ix3 (i 0) (i 1) k)) (fun k => x3 (ValueIdx.ix1 k))
    (fun k => x4 (ValueIdx.ix1 k)) (fun k => x5 (ValueIdx.ix1 k)) (fun k l => x6 (ValueIdx.ix2 k l)) (fun l => x7 (ValueIdx.ix1 l))
    (fun l k => x8 (ValueIdx.ix2 l k)) (fun k => x9 (ValueIdx.ix1 k)) (i 2)

/-- A row of the result only depends on its nine pieces of data and the column. -/
theorem row_congr {x x' r r' bias bias' nw nw' nb nb' : Fin 1024 → EReal} {W1 W1' : Fin 1024 → Fin 4096 → EReal}
    {b1 b1' : Fin 4096 → EReal} {W2 W2' : Fin 4096 → Fin 1024 → EReal} {b2 b2' : Fin 1024 → EReal} {q q' : Fin 1024}
    (h0 : x = x') (h1 : r = r') (h2 : bias = bias') (h3 : nw = nw') (h4 : nb = nb') (h5 : W1 = W1') (h6 : b1 = b1')
    (h7 : W2 = W2') (h8 : b2 = b2') (hq : q = q') :
    row x r bias nw nb W1 b1 W2 b2 q = row x' r' bias' nw' nb' W1' b1' W2' b2' q' := by
  subst h0 h1 h2 h3 h4 h5 h6 h7 h8 hq; rfl

end Cert.Mlp

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KernelPay.lean ====
/-
  The body's arithmetic on one block of 256 rows, read at an entry.

  The block's stored value is built from three pieces: the pre-normalisation sum of the two streamed blocks and
  the bias row; the first matrix product, whose left operand is the layer-normalised sum; and the second product
  with its bias and the residual added back. Each piece is read at `(p, q)` through the row functions of the
  specification: a lane sum kept as a column only looks at row `p`, a row `[1, n]` spread over the block only at
  column `q`, and a product into the zero accumulator is the sum over the contracted axis.
-/
import proofs.«112436_j50757923504330_1_alg».proof.Proof.Gen.KernelIdeal.Skeleton
import proofs.«112436_j50757923504330_1_alg».proof.Proof.Spec
import proofs.«112436_j50757923504330_1_alg».proof.Proof.LibKeepdims
import proofs.«112436_j50757923504330_1_alg».proof.Proof.LibMatmulPlain

noncomputable section

open scoped BigOperators

namespace Cert.KernelIdeal.Pay

open Cert.KernelIdeal Cert.KernelIdeal.Gen Idealize.ShloMosaic Idealize.ShloMosaic.ValueIdx Cert.Mlp

/-! ## The kernel's spelling of the normalisation, on any block -/

/-- The mean of every row, kept as a column: the lane sum cast to `[256, 1]` and divided by 1024. -/
def meanCol (v : FVec Ideal S256x1024 .f32) : FVec Ideal S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

/-- Every row less its mean. -/
def ctrArr (v : FVec Ideal S256x1024 .f32) : FVec Ideal S256x1024 .f32 :=
  subf v (broadcastTo S256x1024 (meanCol v) broadcasts_S256x1_S256x1024)

/-- The layer-normalised block with scale row `x3` and shift row `x4`. -/
def lnArr (v : FVec Ideal S256x1024 .f32) (x3 x4 : Vec Ideal S1x1024 .f32) : FVec Ideal S256x1024 .f32 :=
  addf (mulf (mulf (ctrArr v)
      (broadcastTo S256x1024 (rsqrt (addf (meanCol (mulf (ctrArr v) (ctrArr v))) (broadcast S256x1 (Scalar.ofBits .f32 0x3727C5AC#32))))
        broadcasts_S256x1_S256x1024))
      (broadcastTo S256x1024 (shapeCast S1x1024 x3 shapeCasts_S1x1024_S1x1024) broadcasts_S1x1024_S256x1024))
    (broadcastTo S256x1024 (shapeCast S1x1024 x4 shapeCasts_S1x1024_S1x1024) broadcasts_S1x1024_S256x1024)

theorem meanCol_apply (v : FVec Ideal S256x1024 .f32) (p : Fin 256) (u : Fin 1) :
    meanCol v (ix2 p u) = mean (fun k => v (ix2 p k)) := by
  unfold meanCol
  show Ideal.div (shapeCast S256x1 _ shapeCasts_S256_S256x1 (ix2 p u)) _ = _
  rw [Cert.LibKeepdims.shapeCast_a_a1_apply, Cert.LibKeepdims.rowSum_apply]
  rfl

theorem ctrArr_apply (v : FVec Ideal S256x1024 .f32) (p : Fin 256) (h : Fin 1024) :
    ctrArr v (ix2 p h) = ctr (fun k => v (ix2 p k)) h := by
  unfold ctrArr
  show v (ix2 p h) - broadcastTo S256x1024 (meanCol v) broadcasts_S256x1_S256x1024 (ix2 p h) = _
  rw [Cert.LibKeepdims.broadcastTo_a1_ab_apply, meanCol_apply]
  rfl

theorem lnArr_apply (v : FVec Ideal S256x1024 .f32) (x3 x4 : Vec Ideal S1x1024 .f32) (p : Fin 256) (h : Fin 1024) :
    lnArr v x3 x4 (ix2 p h) = ln (fun k => v (ix2 p k)) (fun k => x3 (ix2 0 k)) (fun k => x4 (ix2 0 k)) h := by
  unfold lnArr
  show ctrArr v (ix2 p h)
      * broadcastTo S256x1024 (rsqrt (addf (meanCol (mulf (ctrArr v) (ctrArr v))) (broadcast S256x1 (Scalar.ofBits .f32 0x3727C5AC#32))))
          broadcasts_S256x1_S256x1024 (ix2 p h)
      * broadcastTo S256x1024 (shapeCast S1x1024 x3 shapeCasts_S1x1024_S1x1024) broadcasts_S1x1024_S256x1024 (ix2 p h)
      + broadcastTo S256x1024 (shapeCast S1x1024 x4 shapeCasts_S1x1024_S1x1024) broadcasts_S1x1024_S256x1024 (ix2 p h) = _
  rw [Cert.LibKeepdims.broadcastTo_a1_ab_apply, Cert.LibKeepdims.row_spread_apply, Cert.LibKeepdims.row_spread_apply, ctrArr_apply]
  show _ * Ideal.rsqrt (meanCol (mulf (ctrArr v) (ctrArr v)) (ix2 p 0) + _) * _ + _ = _
  rw [meanCol_apply]
  have e : (fun k => mulf (ctrArr v) (ctrArr v) (ix2 p k)) = fun k => ctr (fun k => v (ix2 p k)) k * ctr (fun k => v (ix2 p k)) k := by
    funext k
    show ctrArr v (ix2 p k) * ctrArr v (ix2 p k) = _
    rw [ctrArr_apply]
  rw [e]
  rfl

/-! ## The three pieces of the stored value -/

/-- The pre-normalisation sum at `(p, q)`. -/
theorem pay2_apply (x0 x1 : Vec Ideal S256x1024 .f32) (x2 : Vec Ideal S1x1024 .f32) (p : Fin 256) (q : Fin 1024) :
    k0_pay2 (F := Ideal) x0 x1 x2 (ix2 p q)
      = pre (fun h => x0 (ix2 p h)) (fun h => x1 (ix2 p h)) (fun h => x2 (ix2 0 h)) q := by
  unfold k0_pay2
  show shapeCast S256x1024 x0 shapeCasts_S256x1024_S256x1024 (ix2 p q)
      + broadcastTo S256x1024 (shapeCast S1x1024 x2 shapeCasts_S1x1024_S1x1024) broadcasts_S1x1024_S256x1024 (ix2 p q)
      + shapeCast S256x1024 x1 shapeCasts_S256x1024_S256x1024 (ix2 p q) = _
  rw [shapeCast_self, shapeCast_self, shapeCast_self, broadcastTo_1b_ab_apply]
  rfl

/-- The first product is the product of the normalised sum with the first weight block. -/
theorem pay3_eq (x0 x1 : Vec Ideal S256x1024 .f32) (x2 x3 x4 : Vec Ideal S1x1024 .f32) (x5 : Vec Ideal S1024x4096 .bf16) :
    k0_pay3 (F := Ideal) x0 x1 x2 x3 x4 x5
      = matmul dot_S256x1024_S1024x4096_S256x4096_1_0_0_1_n_n none
          (truncf .bf16 (lnArr (k0_pay2 (F := Ideal) x0 x1 x2) x3 x4) bitsLt_bf16_f32)
          (shapeCast S1024x4096 x5 shapeCasts_S1024x4096_S1024x4096 : FVec Ideal S1024x4096 .bf16) (constant S256x4096 .f32 0x00000000#32) := rfl

/-- The first product at `(p, i)`: the normalised row `p` against column `i` of the first weight block. -/
theorem pay3_apply (x0 x1 : Vec Ideal S256x1024 .f32) (x2 x3 x4 : Vec Ideal S1x1024 .f32) (x5 : Vec Ideal S1024x4096 .bf16)
    (p : Fin 256) (i : Fin 4096) :
    k0_pay3 (F := Ideal) x0 x1 x2 x3 x4 x5 (ix2 p i)
      = ∑ h : Fin 1024, ln (pre (fun h => x0 (ix2 p h)) (fun h => x1 (ix2 p h)) (fun h => x2 (ix2 0 h)))
          (fun k => x3 (ix2 0 k)) (fun k => x4 (ix2 0 k)) h * x5 (ix2 h i) := by
  rw [pay3_eq]
  refine (Cert.LibMatmulPlain.matmul_zero_apply dot_S256x1024_S1024x4096_S256x4096_1_0_0_1_n_n rfl rfl rfl rfl rfl rfl none _ _ p i).trans ?_
  refine Finset.sum_congr rfl fun h _ => ?_
  show lnArr (k0_pay2 (F := Ideal) x0 x1 x2) x3 x4 (ix2 p h) * shapeCast S1024x4096 x5 shapeCasts_S1024x4096_S1024x4096 (ix2 h i) = _
  rw [lnArr_apply, shapeCast_self]
  have e : (fun k => k0_pay2 (F := Ideal) x0 x1 x2 (ix2 p k)) = pre (fun h => x0 (ix2 p h)) (fun h => x1 (ix2 p h)) (fun h => x2 (ix2 0 h)) :=
    funext fun k => pay2_apply x0 x1 x2 p k
  rw [e]

/-- The stored value at `(p, q)` from the three pieces: gelu of the biased first product against column `q` of
    the second weight block, plus the second bias, plus the pre-normalisation sum. -/
theorem pay1_apply (v8 : FVec Ideal S256x1024 .f32) (v36 : FVec Ideal S256x4096 .f32) (v38 : FVec Ideal S1x4096 .f32)
    (x7 : Vec Ideal S4096x1024 .bf16) (x8 : Vec Ideal S1x1024 .f32) (p : Fin 256) (q : Fin 1024) :
    k0_pay1 (F := Ideal) v8 v36 v38 x7 x8 (ix2 p q)
      = ∑ i : Fin 4096, gelu (v36 (ix2 p i) + v38 (ix2 0 i)) * x7 (ix2 i q) + x8 (ix2 0 q) + v8 (ix2 p q) := by
  unfold k0_pay1
  show FloatOps.matmul (F := Ideal) dot_S256x4096_S4096x1024_S256x1024_1_0_0_1_n_n none _ _ (constant S256x1024 .f32 0x00000000#32) (ix2 p q)
      + broadcastTo S256x1024 (shapeCast S1x1024 x8 shapeCasts_S1x1024_S1x1024) broadcasts_S1x1024_S256x1024 (ix2 p q) + v8 (ix2 p q) = _
  rw [Cert.LibMatmulPlain.matmul_zero_apply dot_S256x4096_S4096x1024_S256x1024_1_0_0_1_n_n rfl rfl rfl rfl rfl rfl,
    Cert.LibKeepdims.row_spread_apply]
  refine congrArg (· + x8 (ix2 0 q) + v8 (ix2 p q)) (Finset.sum_congr rfl fun i _ => ?_)
  refine congrArg₂ (· * ·) ?_ (congrFun (shapeCast_self x7 _) _)
  show gelu (v36 (ix2 p i) + broadcastTo S256x4096 v38 broadcasts_S1x4096_S256x4096 (ix2 p i)) = _
  rw [broadcastTo_1b_ab_apply]

/-- The bias row of the hidden layer is loaded as it is. -/
theorem pay4_eq (x6 : Vec Ideal S1x4096 .f32) : k0_pay4 (F := Ideal) x6 = x6 := by
  unfold k0_pay4
  exact shapeCast_self x6 _

/-! ## The stored value at an entry is the row function of the row's data -/

theorem stored_apply (x0 x1 : Vec Ideal S256x1024 .f32) (x2 x3 x4 : Vec Ideal S1x1024 .f32) (x5 : Vec Ideal S1024x4096 .bf16)
    (x6 : Vec Ideal S1x4096 .f32) (x7 : Vec Ideal S4096x1024 .bf16) (x8 : Vec Ideal S1x1024 .f32) (p : Fin 256) (q : Fin 1024) :
    k0_pay1 (F := Ideal) (k0_pay2 x0 x1 x2) (k0_pay3 x0 x1 x2 x3 x4 x5) (k0_pay4 x6) x7 x8 (ix2 p q)
      = row (fun h => x0 (ix2 p h)) (fun h => x1 (ix2 p h)) (fun h => x2 (ix2 0 h)) (fun h => x3 (ix2 0 h)) (fun h => x4 (ix2 0 h))
          (fun h i => x5 (ix2 h i)) (fun i => x6 (ix2 0 i)) (fun i h => x7 (ix2 i h)) (fun h => x8 (ix2 0 h)) q := by
  rw [pay1_apply, pay2_apply, pay4_eq]
  have e : ∀ i : Fin 4096, k0_pay3 (F := Ideal) x0 x1 x2 x3 x4 x5 (ix2 p i)
      = ∑ h : Fin 1024, ln (pre (fun h => x0 (ix2 p h)) (fun h => x1 (ix2 p h)) (fun h => x2 (ix2 0 h)))
          (fun k => x3 (ix2 0 k)) (fun k => x4 (ix2 0 k)) h * x5 (ix2 h i) := fun i => pay3_apply x0 x1 x2 x3 x4 x5 p i
  simp only [e]
  rfl

/-- The same at any index of the block. -/
theorem stored_at (x0 x1 : Vec Ideal S256x1024 .f32) (x2 x3 x4 : Vec Ideal S1x1024 .f32) (x5 : Vec Ideal S1024x4096 .bf16)
    (x6 : Vec Ideal S1x4096 .f32) (x7 : Vec Ideal S4096x1024 .bf16) (x8 : Vec Ideal S1x1024 .f32) (j : S256x1024.Idx) :
    k0_pay1 (F := Ideal) (k0_pay2 x0 x1 x2) (k0_pay3 x0 x1 x2 x3 x4 x5) (k0_pay4 x6) x7 x8 j
      = row (fun h => x0 (ix2 (j 0) h)) (fun h => x1 (ix2 (j 0) h)) (fun h => x2 (ix2 0 h)) (fun h => x3 (ix2 0 h)) (fun h => x4 (ix2 0 h))
          (fun h i => x5 (ix2 h i)) (fun i => x6 (ix2 0 i)) (fun i h => x7 (ix2 i h)) (fun h => x8 (ix2 0 h)) (j 1) := by
  obtain ⟨p, q, rfl⟩ : ∃ (p : Fin 256) (q : Fin 1024), j = ix2 p q := ⟨j 0, j 1, eq_ix2 j⟩
  exact stored_apply x0 x1 x2 x3 x4 x5 x6 x7 x8 p q

end Cert.KernelIdeal.Pay

end
-- ==== Proof.KernelValue.lean ====
/-
  What the kernel program leaves in its result, as one function of its argument arrays.

  The region works on the two streamed arrays laid out as `[32768, 1024]` (the host reshapes them before the call), 256
  rows per grid point; the parameter windows are whole arrays at every point. What point `t` writes back is block `t`
  of one function of the arrays the region finds: row `r` of it is the row function of row `r`. The blocks of the 128
  points cover the array, so the array after the region is that function; the host then lays it out as
  `[4, 8192, 1024]` again, and position `(b, s)` of the stack is row `8192 * b + s`.
-/
import proofs.«112436_j50757923504330_1_alg».proof.Proof.Gen.KernelIdeal.Frame
import proofs.«112436_j50757923504330_1_alg».proof.Proof.KernelPay
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result on the `[32768, 1024]` layout: row `i 0` of the two streamed arrays through the row function. -/
def G2 (A0 A1 : S32768x1024.Idx → Elt Ideal .f32) (B2 B3 B4 : S1x1024.Idx → Elt Ideal .f32)
    (A5 : S1024x4096.Idx → Elt Ideal .bf16) (B6 : S1x4096.Idx → Elt Ideal .f32) (A7 : S4096x1024.Idx → Elt Ideal .bf16)
    (B8 : S1x1024.Idx → Elt Ideal .f32) : S32768x1024.Idx → Elt Ideal .f32 := fun i =>
  row (fun h => A0 (ix2 (i 0) h)) (fun h => A1 (ix2 (i 0) h)) (fun h => B2 (ix2 0 h)) (fun h => B3 (ix2 0 h)) (fun h => B4 (ix2 0 h))
    (fun h k => A5 (ix2 h k)) (fun k => B6 (ix2 0 k)) (fun k h => A7 (ix2 k h)) (fun h => B8 (ix2 0 h)) (i 1)

/-- The printed index maps over the 128 points: the two streamed windows and the result move together down the rows,
    point `t` at block `t`; every parameter window stays at block zero. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- WHAT POINT `t` WRITES BACK is block `t` of `G2` of the arrays the region finds. -/
theorem flushed_eq (c : Dev nD) (t : Fin cfg0.N) :
    (dats m 0 c).flushed 9 t = ((cfg0.win 9).blk t).view.read (Elt Ideal)
      (G2 (V m c main_v0) (V m c main_v1) (V m c main_v2) (V m c main_v3) (V m c main_v4) (V m c main_v7) (V m c main_v5)
        (V m c main_v8) (V m c main_v6)) := by
  show (cfg0.win 9).cut (grid0.coords t) ((dats m 0 c).after 9 t) = _
  rw [after0_9]
  unfold out0_9
  rw [View.canon_unit_zero hz]
  simp only [View.ld_unit_zero (S := S256x1024) hz, View.ld_unit_zero (S := S1x1024) hz, View.ld_unit_zero (S := S1024x4096) hz,
    View.ld_unit_zero (S := S1x4096) hz, View.ld_unit_zero (S := S4096x1024) hz]
  funext j
  show k0_pay1 (F := Ideal) (k0_pay2 (iblk m c 0 t) (iblk m c 1 t) (iblk m c 2 t))
      (k0_pay3 (iblk m c 0 t) (iblk m c 1 t) (iblk m c 2 t) (iblk m c 3 t) (iblk m c 4 t) (iblk m c 5 t))
      (k0_pay4 (iblk m c 6 t)) (iblk m c 7 t) (iblk m c 8 t) j
    = G2 (V m c main_v0) (V m c main_v1) (V m c main_v2) (V m c main_v3) (V m c main_v4) (V m c main_v7) (V m c main_v5)
        (V m c main_v8) (V m c main_v6) (((cfg0.win 9).blk t).view.emb j)
  refine (Pay.stored_at (iblk m c 0 t) (iblk m c 1 t) (iblk m c 2 t) (iblk m c 3 t) (iblk m c 4 t) (iblk m c 5 t) (iblk m c 6 t)
    (iblk m c 7 t) (iblk m c 8 t) j).trans ?_
  unfold G2
  obtain ⟨e00, e01, e10, e11, e20, e21, e30, e31, e40, e41, e50, e51, e60, e61, e70, e71, e80, e81, e90, e91⟩ := idx_facts t
  have hj0 : (j 0).val < 256 := (j 0).isLt
  have hj1 : (j 1).val < 1024 := (j 1).isLt
  refine row_congr (funext fun h => ?_) (funext fun h => ?_) (funext fun h => ?_) (funext fun h => ?_) (funext fun h => ?_)
    (funext fun h => funext fun k => ?_) (funext fun k => ?_) (funext fun k => funext fun h => ?_) (funext fun h => ?_) ?_
  · show V m c main_v0 (((cfg0.win 0).blk t).view.emb (ix2 (j 0) h)) = V m c main_v0 (ix2 ((((cfg0.win 9).blk t).view.emb j) 0) h)
    refine congrArg (V m c main_v0) (funext fun a => Fin.ext ?_)
    match a with
    | ⟨0, _⟩ => show win0_0.index t (0 : Fin 2) * 256 + 1 * (j 0).val = win0_9.index t (0 : Fin 2) * 256 + 1 * (j 0).val; omega
    | ⟨1, _⟩ => show win0_0.index t (1 : Fin 2) * 1024 + 1 * h.val = h.val; omega
  · show V m c main_v1 (((cfg0.win 1).blk t).view.emb (ix2 (j 0) h)) = V m c main_v1 (ix2 ((((cfg0.win 9).blk t).view.emb j) 0) h)
    refine congrArg (V m c main_v1) (funext fun a => Fin.ext ?_)
    match a with
    | ⟨0, _⟩ => show win0_1.index t (0 : Fin 2) * 256 + 1 * (j 0).val = win0_9.index t (0 : Fin 2) * 256 + 1 * (j 0).val; omega
    | ⟨1, _⟩ => show win0_1.index t (1 : Fin 2) * 1024 + 1 * h.val = h.val; omega
  · show V m c main_v2 (((cfg0.win 2).blk t).view.emb (ix2 0 h)) = V m c main_v2 (ix2 0 h)
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 1024 + 1 * h.val = h.val; omega
  · show V m c main_v3 (((cfg0.win 3).blk t).view.emb (ix2 0 h)) = V m c main_v3 (ix2 0 h)
    refine congrArg (V m c main_v3) (funext fun a => Fin.ext ?_)
    match a with
    | ⟨0, _⟩ => show win0_3.index t (0 : Fin 2) * 1 + 1 * 0 = 0; omega
    | ⟨1, _⟩ => show win0_3.index t (1 : Fin 2) * 1024 + 1 * h.val = h.val; omega
  · show V m c main_v4 (((cfg0.win 4).blk t).view.emb (ix2 0 h)) = V m c main_v4 (ix2 0 h)
    refine congrArg (V m c main_v4) (funext fun a => Fin.ext ?_)
    match a with
    | ⟨0, _⟩ => show win0_4.index t (0 : Fin 2) * 1 + 1 * 0 = 0; omega
    | ⟨1, _⟩ => show win0_4.index t (1 : Fin 2) * 1024 + 1 * h.val = h.val; omega
  · show V m c main_v7 (((cfg0.win 5).blk t).view.emb (ix2 h k)) = V m c main_v7 (ix2 h k)
    refine congrArg (V m c main_v7) (funext fun a => Fin.ext ?_)
    match a with
    | ⟨0, _⟩ => show win0_5.index t (0 : Fin 2) * 1024 + 1 * h.val = h.val; omega
    | ⟨1, _⟩ => show win0_5.index t (1 : Fin 2) * 4096 + 1 * k.val = k.val; omega
  · show V m c main_v5 (((cfg0.win 6).blk t).view.emb (ix2 0 k)) = V m c main_v5 (ix2 0 k)
    refine congrArg (V m c main_v5) (funext fun a => Fin.ext ?_)
    match a with
    | ⟨0, _⟩ => show win0_6.index t (0 : Fin 2) * 1 + 1 * 0 = 0; omega
    | ⟨1, _⟩ => show win0_6.index t (1 : Fin 2) * 4096 + 1 * k.val = k.val; omega
  · show V m c main_v8 (((cfg0.win 7).blk t).view.emb (ix2 k h)) = V m c main_v8 (ix2 k h)
    refine congrArg (V m c main_v8) (funext fun a => Fin.ext ?_)
    match a with
    | ⟨0, _⟩ => show win0_7.index t (0 : Fin 2) * 4096 + 1 * k.val = k.val; omega
    | ⟨1, _⟩ => show win0_7.index t (1 : Fin 2) * 1024 + 1 * h.val = h.val; omega
  · show V m c main_v6 (((cfg0.win 8).blk t).view.emb (ix2 0 h)) = V m c main_v6 (ix2 0 h)
    refine congrArg (V m c main_v6) (funext fun a => Fin.ext ?_)
    match a with
    | ⟨0, _⟩ => show win0_8.index t (0 : Fin 2) * 1 + 1 * 0 = 0; omega
    | ⟨1, _⟩ => show win0_8.index t (1 : Fin 2) * 1024 + 1 * h.val = h.val; omega
  · apply Fin.ext
    show (j 1).val = win0_9.index t (1 : Fin 2) * 1024 + 1 * (j 1).val
    omega

/-- An index of the array is in point `t`'s block iff each coordinate is in the block's range on its axis. -/
theorem mem_blk (t : Fin cfg0.N) (i : S32768x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v9).slice (win0_9.rect t)).set ↔ _
  rw [View.set_slice_whole, Rect.mem_set_unit]
  exact Iff.rfl

/-- Row `r` lies in the block of point `r / 256`: the 128 blocks cover the array. -/
theorem cover (i : S32768x1024.Idx) : ∃ t : Fin cfg0.N, (cfg0.win 9).flush t = true ∧ i ∈ ((cfg0.win 9).blk t).view.set := by
  have hi0 : (i 0).val < 32768 := (i 0).isLt
  have hi1 : (i 1).val < 1024 := (i 1).isLt
  have hN : grid0.N = 128 := N_0
  have ht : (i 0).val / 256 < cfg0.N := by show _ < grid0.N; omega
  obtain ⟨_, _, _, _, _, _, _, _, _, _, _, _, _, _, _, _, _, _, e90, e91⟩ := idx_facts ⟨(i 0).val / 256, ht⟩
  refine ⟨⟨(i 0).val / 256, ht⟩, flush0_9 _, ?_⟩
  rw [mem_blk]
  intro a
  match a with
  | ⟨0, _⟩ =>
    show win0_9.index ⟨(i 0).val / 256, ht⟩ (0 : Fin 2) * 256 ≤ (i 0).val
      ∧ (i 0).val < win0_9.index ⟨(i 0).val / 256, ht⟩ (0 : Fin 2) * 256 + 256
    have e : win0_9.index ⟨(i 0).val / 256, ht⟩ (0 : Fin 2) = (i 0).val / 256 := e90
    omega
  | ⟨1, _⟩ =>
    show win0_9.index ⟨(i 0).val / 256, ht⟩ (1 : Fin 2) * 1024 ≤ (i 1).val
      ∧ (i 1).val < win0_9.index ⟨(i 0).val / 256, ht⟩ (1 : Fin 2) * 1024 + 1024
    omega

/-- THE ARRAY after the region is `G2` of the arrays the region finds. -/
theorem final (c : Dev nD) : (dats m 0 c).arrAt 9 cfg0.N
    = G2 (V m c main_v0) (V m c main_v1) (V m c main_v2) (V m c main_v3) (V m c main_v4) (V m c main_v7) (V m c main_v5)
        (V m c main_v8) (V m c main_v6) :=
  (dats m 0 c).arrAt_eq_of_cover 9 _ (fun t _ => flushed_eq m c t) cover

/-! ## The arrays the region finds: the host lines before it -/

theorem V_v0 (c : Dev nD) : (V m c main_v0 : S32768x1024.Idx → Elt Ideal .f32)
    = shapeCast S32768x1024 (m ((c : Thread nD τ).loc main_arg0)) shapeCasts_S4x8192x1024_S32768x1024 := by
  show StableHlo.after hostOps0 (fun b => m (c, b)) (Proc.devRef .tc main_v0) = _
  after_results; rfl

theorem V_v1 (c : Dev nD) : (V m c main_v1 : S32768x1024.Idx → Elt Ideal .f32)
    = shapeCast S32768x1024 (m ((c : Thread nD τ).loc main_arg1)) shapeCasts_S4x8192x1024_S32768x1024 := by
  show StableHlo.after hostOps0 (fun b => m (c, b)) (Proc.devRef .tc main_v1) = _
  after_results; rfl

theorem V_v2 (c : Dev nD) : (V m c main_v2 : S1x1024.Idx → Elt Ideal .f32)
    = shapeCast S1x1024 (m ((c : Thread nD τ).loc main_arg3)) shapeCasts_S1024_S1x1024 := by
  show StableHlo.after hostOps0 (fun b => m (c, b)) (Proc.devRef .tc main_v2) = _
  after_results; rfl

theorem V_v3 (c : Dev nD) : (V m c main_v3 : S1x1024.Idx → Elt Ideal .f32)
    = shapeCast S1x1024 (m ((c : Thread nD τ).loc main_arg4)) shapeCasts_S1024_S1x1024 := by
  show StableHlo.after hostOps0 (fun b => m (c, b)) (Proc.devRef .tc main_v3) = _
  after_results; rfl

theorem V_v4 (c : Dev nD) : (V m c main_v4 : S1x1024.Idx → Elt Ideal .f32)
    = shapeCast S1x1024 (m ((c : Thread nD τ).loc main_arg5)) shapeCasts_S1024_S1x1024 := by
  show StableHlo.after hostOps0 (fun b => m (c, b)) (Proc.devRef .tc main_v4) = _
  after_results; rfl

theorem V_v5 (c : Dev nD) : (V m c main_v5 : S1x4096.Idx → Elt Ideal .f32)
    = shapeCast S1x4096 (m ((c : Thread nD τ).loc main_arg7)) shapeCasts_S4096_S1x4096 := by
  show StableHlo.after hostOps0 (fun b => m (c, b)) (Proc.devRef .tc main_v5) = _
  after_results; rfl

theorem V_v6 (c : Dev nD) : (V m c main_v6 : S1x1024.Idx → Elt Ideal .f32)
    = shapeCast S1x1024 (m ((c : Thread nD τ).loc main_arg9)) shapeCasts_S1024_S1x1024 := by
  show StableHlo.after hostOps0 (fun b => m (c, b)) (Proc.devRef .tc main_v6) = _
  after_results; rfl

theorem V_v7 (c : Dev nD) : (V m c main_v7 : S1024x4096.Idx → Elt Ideal .bf16)
    = (truncf (F := Ideal) (s := S1024x4096) (φ := .f32) .bf16 (m ((c : Thread nD τ).loc main_arg6)) bitsLt_bf16_f32 : S1024x4096.Idx → Elt Ideal .bf16) := by
  show StableHlo.after hostOps0 (fun b => m (c, b)) (Proc.devRef .tc main_v7) = _
  after_results

theorem V_v8 (c : Dev nD) : (V m c main_v8 : S4096x1024.Idx → Elt Ideal .bf16)
    = (truncf (F := Ideal) (s := S4096x1024) (φ := .f32) .bf16 (m ((c : Thread nD τ).loc main_arg8)) bitsLt_bf16_f32 : S4096x1024.Idx → Elt Ideal .bf16) := by
  show StableHlo.after hostOps0 (fun b => m (c, b)) (Proc.devRef .tc main_v8) = _
  after_results

/-! ## The two layouts -/

/-- Row `8192 * b + s` of the `[32768, 1024]` layout of a stack is its position `(b, s)`. -/
theorem rows_cast (X : S4x8192x1024.Idx → Elt Ideal .f32) (b : Fin 4) (s : Fin 8192) (k : Fin 1024)
    (hr : 8192 * b.val + s.val < 32768) :
    shapeCast S32768x1024 X shapeCasts_S4x8192x1024_S32768x1024 (ix2 (⟨8192 * b.val + s.val, hr⟩ : Fin 32768) k) = X (ix3 b s k) :=
  shapeCast_apply X _ _ _ (by
    rw [Shape.rowMajor_val_two, Shape.rowMajor_val_three]
    show (b.val * 8192 + s.val) * 1024 + k.val = (8192 * b.val + s.val) * 1024 + k.val
    omega)

/-- Position `(b, s)` of the `[4, 8192, 1024]` layout of a matrix is its row `8192 * b + s`. -/
theorem stack_cast (Y : S32768x1024.Idx → Elt Ideal .f32) (b : Fin 4) (s : Fin 8192) (h : Fin 1024)
    (hr : 8192 * b.val + s.val < 32768) :
    shapeCast S4x8192x1024 Y shapeCasts_S32768x1024_S4x8192x1024 (ix3 b s h) = Y (ix2 (⟨8192 * b.val + s.val, hr⟩ : Fin 32768) h) :=
  shapeCast_apply Y _ _ _ (by
    rw [Shape.rowMajor_val_two, Shape.rowMajor_val_three]
    show (8192 * b.val + s.val) * 1024 + h.val = (b.val * 8192 + s.val) * 1024 + h.val
    omega)

/-- A vector of 1024 entries laid out as one row. -/
theorem row_cast (x : S1024.Idx → Elt Ideal .f32) (k : Fin 1024) :
    shapeCast S1x1024 x shapeCasts_S1024_S1x1024 (ix2 (0 : Fin 1) k) = x (ix1 k) :=
  shapeCast_apply x _ _ _ (by
    rw [Shape.rowMajor_val_two, Shape.rowMajor_val_one]
    show k.val = 0 * 1024 + k.val
    omega)

/-- A vector of 4096 entries laid out as one row. -/
theorem row_cast' (x : S4096.Idx → Elt Ideal .f32) (k : Fin 4096) :
    shapeCast S1x4096 x shapeCasts_S4096_S1x4096 (ix2 (0 : Fin 1) k) = x (ix1 k) :=
  shapeCast_apply x _ _ _ (by
    rw [Shape.rowMajor_val_two, Shape.rowMajor_val_one]
    show k.val = 0 * 4096 + k.val
    omega)

/-- `G2` of the re-laid arguments, laid back as a stack, is the specification's result. -/
theorem G2_stack (X0 X1 : S4x8192x1024.Idx → Elt Ideal .f32) (x3 x4 x5 x9 : S1024.Idx → Elt Ideal .f32)
    (x6 : S1024x4096.Idx → Elt Ideal .f32) (x7 : S4096.Idx → Elt Ideal .f32) (x8 : S4096x1024.Idx → Elt Ideal .f32) :
    shapeCast S4x8192x1024
        (G2 (shapeCast S32768x1024 X0 shapeCasts_S4x8192x1024_S32768x1024) (shapeCast S32768x1024 X1 shapeCasts_S4x8192x1024_S32768x1024)
          (shapeCast S1x1024 x3 shapeCasts_S1024_S1x1024) (shapeCast S1x1024 x4 shapeCasts_S1024_S1x1024)
          (shapeCast S1x1024 x5 shapeCasts_S1024_S1x1024)
          (truncf (F := Ideal) (s := S1024x4096) (φ := .f32) .bf16 x6 bitsLt_bf16_f32)
          (shapeCast S1x4096 x7 shapeCasts_S4096_S1x4096)
          (truncf (F := Ideal) (s := S4096x1024) (φ := .f32) .bf16 x8 bitsLt_bf16_f32)
          (shapeCast S1x1024 x9 shapeCasts_S1024_S1x1024))
        shapeCasts_S32768x1024_S4x8192x1024
      = result X0 X1 x3 x4 x5 x6 x7 x8 x9 := by
  funext i
  obtain ⟨b, s, h, rfl⟩ : ∃ (b : Fin 4) (s : Fin 8192) (h : Fin 1024), i = ix3 b s h := ⟨i 0, i 1, i 2, eq_ix3 i⟩
  have hr : 8192 * b.val + s.val < 32768 := by have := b.isLt; have := s.isLt; omega
  rw [stack_cast _ b s h hr]
  unfold G2 result
  refine row_congr (funext fun k => ?_) (funext fun k => ?_) (funext fun k => ?_) (funext fun k => ?_) (funext fun k => ?_)
    rfl (funext fun l => ?_) rfl (funext fun k => ?_) rfl
  · exact rows_cast X0 b s k hr
  · exact rows_cast X1 b s k hr
  · exact row_cast x3 k
  · exact row_cast x4 k
  · exact row_cast x5 k
  · exact row_cast' x7 l
  · exact row_cast x9 k

/-! ## The host line after the region, and the run -/

/-- The program's result buffer after the run is the specification's result of the argument arrays. -/
theorem result_eq (c : Dev nD) :
    (Pipeline.afterTail₀ cfgs (dats m) 0 (V0 m) [hostOps1] c main_v10 : S4x8192x1024.Idx → Elt Ideal .f32)
      = result (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = G2 (V m c main_v0) (V m c main_v1) (V m c main_v2) (V m c main_v3) (V m c main_v4) (V m c main_v7) (V m c main_v5)
          (V m c main_v8) (V m c main_v6) :=
    (Pipeline.withArrays_arr spec0 launch0.win.arr_inj c _ _ 9).trans (final m c)
  rw [e, V_v0, V_v1, V_v2, V_v3, V_v4, V_v5, V_v6, V_v7, V_v8]
  exact G2_stack _ _ _ _ _ _ _ _ _

/-- Every weakly fair execution of the program terminates with the result buffer at the specification's result of the
    argument arrays, and the arguments as launched. -/
theorem run : θ_run defs (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.KValue

end
-- ==== Proof.RefRead.lean ====
/-
  The reference program read at an entry `(b, s, h)` of its result.

  Every stage of the reference either acts entry by entry, or spreads a vector or a per-row column over the
  stack, or sums along the last axis, or contracts the last axis with a weight matrix. Read at `(b, s, ·)` each
  of them only looks at row `(b, s)` of the two streamed arrays, so the result's entry is the specification's
  row function of that row. The cube inside gelu is taken here as `(z * z) * z`; commutativity joins the two.
-/
import proofs.«112436_j50757923504330_1_alg».proof.Proof.Gen.ReferenceIdeal.Read
import proofs.«112436_j50757923504330_1_alg».proof.Proof.Spec

noncomputable section

open scoped BigOperators

namespace Cert.ReferenceIdeal.RefRead

open Cert.ReferenceIdeal Cert.ReferenceIdeal.Read Idealize.ShloMosaic Idealize.ShloMosaic.ValueIdx Cert.Mlp

/-- Two indices of rank one, two or three with the same coordinates are equal. -/
macro "idx_eq1" : tactic => `(tactic| (funext a; apply Fin.ext; match a with | ⟨0, _⟩ => rfl))
macro "idx_eq2" : tactic => `(tactic| (funext a; apply Fin.ext; match a with | ⟨0, _⟩ => rfl | ⟨1, _⟩ => rfl))
macro "idx_eq3" : tactic => `(tactic| (funext a; apply Fin.ext; match a with | ⟨0, _⟩ => rfl | ⟨1, _⟩ => rfl | ⟨2, _⟩ => rfl))

variable (x0 x1 : (⟨S4x8192x1024, .f32⟩ : BufTy).Contents (Elt Ideal))
  (x3 x4 x5 x9 : (⟨S1024, .f32⟩ : BufTy).Contents (Elt Ideal))
  (x6 : (⟨S1024x4096, .f32⟩ : BufTy).Contents (Elt Ideal)) (x7 : (⟨S4096, .f32⟩ : BufTy).Contents (Elt Ideal))
  (x8 : (⟨S4096x1024, .f32⟩ : BufTy).Contents (Elt Ideal))

/-- Row `(b, s)` of the pre-normalisation sum. -/
abbrev P (b : Fin 4) (s : Fin 8192) : Fin 1024 → EReal :=
  pre (fun k => x0 (ix3 b s k)) (fun k => x1 (ix3 b s k)) (fun k => x3 (ix1 k))

/-! ## Vectors spread over the stack -/

theorem v1_at (b : Fin 4) (s : Fin 8192) (h : Fin 1024) : val_main_v1 (F := Ideal) x3 (ix3 b s h) = x3 (ix1 h) := by
  rw [val_main_v1_apply, val_main_v0_apply]
  exact congrArg x3 (by idx_eq1)

theorem v23_at (b : Fin 4) (s : Fin 8192) (h : Fin 1024) : val_main_v23 (F := Ideal) x4 (ix3 b s h) = x4 (ix1 h) := by
  rw [val_main_v23_apply, val_main_v22_apply]
  exact congrArg x4 (by idx_eq1)

theorem v26_at (b : Fin 4) (s : Fin 8192) (h : Fin 1024) : val_main_v26 (F := Ideal) x5 (ix3 b s h) = x5 (ix1 h) := by
  rw [val_main_v26_apply, val_main_v25_apply]
  exact congrArg x5 (by idx_eq1)

theorem v30_at (b : Fin 4) (s : Fin 8192) (i : Fin 4096) : val_main_v30 (F := Ideal) x7 (ix3 b s i) = x7 (ix1 i) := by
  rw [val_main_v30_apply, val_main_v29_apply]
  exact congrArg x7 (by idx_eq1)

theorem v47_at (b : Fin 4) (s : Fin 8192) (h : Fin 1024) : val_main_v47 (F := Ideal) x9 (ix3 b s h) = x9 (ix1 h) := by
  rw [val_main_v47_apply, val_main_v46_apply]
  exact congrArg x9 (by idx_eq1)

/-! ## The layer normalisation -/

theorem v3_at (b : Fin 4) (s : Fin 8192) (h : Fin 1024) : val_main_v3 (F := Ideal) x0 x1 x3 (ix3 b s h) = P x0 x1 x3 b s h := by
  rw [val_main_v3_apply, val_main_v2_apply, v1_at]
  rfl

theorem v7_at (b : Fin 4) (s : Fin 8192) (u : Fin 1) : val_main_v7 (F := Ideal) x0 x1 x3 (ix3 b s u) = mean (P x0 x1 x3 b s) := by
  rw [val_main_v7_apply, val_main_v5_apply, val_main_v4_apply, val_main_v6_apply, val_main_cst_apply, val_main_cst_0_apply]
  show Ideal.div (Ideal.ofBits .f32 0x00000000#32 + ∑ k : Fin 1024, val_main_v3 (F := Ideal) x0 x1 x3 (idx_main_v4 (idx_main_v5 (ix3 b s u)) k))
      (Ideal.ofBits .f32 0x44800000#32) = _
  rw [Ideal.ofBits_zero_f32, zero_add]
  unfold mean
  refine congrArg (Ideal.div · _) (Finset.sum_congr rfl fun k _ => ?_)
  have e : idx_main_v4 (idx_main_v5 (ix3 b s u)) k = ix3 b s k := by idx_eq3
  rw [e, v3_at]

theorem v9_at (b : Fin 4) (s : Fin 8192) (h : Fin 1024) : val_main_v9 (F := Ideal) x0 x1 x3 (ix3 b s h) = ctr (P x0 x1 x3 b s) h := by
  rw [val_main_v9_apply, val_main_v8_apply, v3_at]
  have e : idx_main_v8 (ix3 b s h) = ix3 b s (0 : Fin 1) := by idx_eq3
  rw [e, v7_at]
  rfl

theorem v16_at (b : Fin 4) (s : Fin 8192) (h : Fin 1024) : val_main_v16 (F := Ideal) x0 x1 x3 (ix3 b s h) = ctr (P x0 x1 x3 b s) h := by
  rw [val_main_v16_apply, val_main_v15_apply, v3_at]
  have e : idx_main_v15 (ix3 b s h) = ix3 b s (0 : Fin 1) := by idx_eq3
  rw [e, v7_at]
  rfl

theorem v14_at (b : Fin 4) (s : Fin 8192) (u : Fin 1) :
    val_main_v14 (F := Ideal) x0 x1 x3 (ix3 b s u) = mean (fun k => ctr (P x0 x1 x3 b s) k * ctr (P x0 x1 x3 b s) k) := by
  rw [val_main_v14_apply, val_main_v12_apply, val_main_v11_apply, val_main_v13_apply, val_main_cst_1_apply, val_main_cst_2_apply]
  show Ideal.div (Ideal.ofBits .f32 0x00000000#32 + ∑ k : Fin 1024, val_main_v10 (F := Ideal) x0 x1 x3 (idx_main_v11 (idx_main_v12 (ix3 b s u)) k))
      (Ideal.ofBits .f32 0x44800000#32) = _
  rw [Ideal.ofBits_zero_f32, zero_add]
  unfold mean
  refine congrArg (Ideal.div · _) (Finset.sum_congr rfl fun k _ => ?_)
  have e : idx_main_v11 (idx_main_v12 (ix3 b s u)) k = ix3 b s k := by idx_eq3
  rw [e, val_main_v10_apply, v9_at]
  rfl

theorem v27_at (b : Fin 4) (s : Fin 8192) (h : Fin 1024) :
    val_main_v27 (F := Ideal) x0 x1 x3 x4 x5 (ix3 b s h) = ln (P x0 x1 x3 b s) (fun k => x4 (ix1 k)) (fun k => x5 (ix1 k)) h := by
  rw [val_main_v27_apply, val_main_v24_apply, val_main_v21_apply, val_main_v20_apply, val_main_v19_apply, val_main_v18_apply,
    val_main_v17_apply, val_main_cst_3_apply, v16_at, v23_at, v26_at]
  have e : idx_main_v20 (ix3 b s h) = ix3 b s (0 : Fin 1) := by idx_eq3
  rw [e, v14_at]
  rfl

/-! ## The hidden layer -/

theorem v28_at (b : Fin 4) (s : Fin 8192) (i : Fin 4096) :
    val_main_v28 (F := Ideal) x0 x1 x3 x4 x5 x6 (ix3 b s i)
      = ∑ h : Fin 1024, ln (P x0 x1 x3 b s) (fun k => x4 (ix1 k)) (fun k => x5 (ix1 k)) h * x6 (ix2 h i) := by
  rw [val_main_v28_apply]
  refine Finset.sum_congr rfl fun h _ => ?_
  have el : lidx_main_v28 (ix3 b s i) h = ix3 b s h := by idx_eq3
  have er : ridx_main_v28 (ix3 b s i) h = ix2 h i := by idx_eq2
  rw [el, er, v27_at]

theorem v31_at (b : Fin 4) (s : Fin 8192) (i : Fin 4096) :
    val_main_v31 (F := Ideal) x0 x1 x3 x4 x5 x6 x7 (ix3 b s i)
      = ∑ h : Fin 1024, ln (P x0 x1 x3 b s) (fun k => x4 (ix1 k)) (fun k => x5 (ix1 k)) h * x6 (ix2 h i) + x7 (ix1 i) := by
  rw [val_main_v31_apply, v28_at, v30_at]
  rfl

theorem v44_at (j : S4x8192x4096.Idx) :
    val_main_v44 (F := Ideal) x0 x1 x3 x4 x5 x6 x7 j = gelu (val_main_v31 (F := Ideal) x0 x1 x3 x4 x5 x6 x7 j) := by
  rw [val_main_v44_apply, val_main_v43_apply, val_main_v42_apply, val_main_cst_7_apply, val_main_v41_apply, val_main_v40_apply,
    val_main_cst_6_apply, val_main_v39_apply, val_main_v38_apply, val_main_v37_apply, val_main_cst_5_apply, val_main_v36_apply,
    val_main_v35_apply, val_main_v34_apply, val_main_cst_4_apply, val_main_v33_apply, val_main_v32_apply]
  generalize val_main_v31 (F := Ideal) x0 x1 x3 x4 x5 x6 x7 j = z
  show z * (Ideal.ofBits .f32 0x3F000000#32 * (Ideal.ofBits .f32 0x3F800000#32
    + Ideal.tanh (Ideal.ofBits .f32 0x3F4C422A#32 * (z + Ideal.ofBits .f32 0x3D372713#32 * (z * z * z))))) = _
  rw [cube_comm]
  rfl

/-! ## The result -/

theorem v45_at (b : Fin 4) (s : Fin 8192) (h : Fin 1024) :
    val_main_v45 (F := Ideal) x0 x1 x3 x4 x5 x6 x7 x8 (ix3 b s h)
      = ∑ i : Fin 4096, hid (ln (P x0 x1 x3 b s) (fun k => x4 (ix1 k)) (fun k => x5 (ix1 k))) (fun k i => x6 (ix2 k i)) (fun i => x7 (ix1 i)) i
          * x8 (ix2 i h) := by
  rw [val_main_v45_apply]
  refine Finset.sum_congr rfl fun i _ => ?_
  have el : lidx_main_v45 (ix3 b s h) i = ix3 b s i := by idx_eq3
  have er : ridx_main_v45 (ix3 b s h) i = ix2 i h := by idx_eq2
  rw [el, er, v44_at, v31_at]
  rfl

/-- The reference's result at `(b, s, h)` is the row function of row `(b, s)`. -/
theorem result_at (b : Fin 4) (s : Fin 8192) (h : Fin 1024) :
    val_main_v49 (F := Ideal) x0 x1 x3 x4 x5 x6 x7 x8 x9 (ix3 b s h)
      = row (fun k => x0 (ix3 b s k)) (fun k => x1 (ix3 b s k)) (fun k => x3 (ix1 k)) (fun k => x4 (ix1 k)) (fun k => x5 (ix1 k))
          (fun k i => x6 (ix2 k i)) (fun i => x7 (ix1 i)) (fun i k => x8 (ix2 i k)) (fun k => x9 (ix1 k)) h := by
  rw [val_main_v49_apply, val_main_v48_apply, v45_at, v47_at, v3_at]
  rfl

/-- The reference's result is the specification's, as whole arrays. -/
theorem result_eq : val_main_v49 (F := Ideal) x0 x1 x3 x4 x5 x6 x7 x8 x9 = result x0 x1 x3 x4 x5 x6 x7 x8 x9 := by
  funext i
  obtain ⟨b, s, h, rfl⟩ : ∃ (b : Fin 4) (s : Fin 8192) (h : Fin 1024), i = ix3 b s h := ⟨i 0, i 1, i 2, eq_ix3 i⟩
  exact result_at x0 x1 x3 x4 x5 x9 x6 x7 x8 b s h

end Cert.ReferenceIdeal.RefRead

end
-- ==== Proof.lean ====
/-
  A fused feed-forward block of a transformer — bias and residual added, layer normalisation, a dense layer with the tanh
  form of gelu, a second dense layer, the pre-normalisation sum added back — computed by a kernel over blocks of 256 rows
  of the `[32768, 1024]` layout, against the same block written with whole-array operations on `[4, 8192, 1024]`.

  On the extended reals both programs compute, for every row `(b, s)`, the one row function of the specification
  (`Cert.Mlp.row`): rounding to bf16 is the identity there, a product into a zero accumulator and a contraction are the same
  sum, a lane sum and a host sum are the same sum, and the two spellings of the cube inside gelu differ by commutativity
  of the product. No cancellation is used, so the inputs' finiteness is never needed. The kernel side reads the frame run:
  what each grid point writes back is a block of one whole-array function, the blocks cover the array, and the host's
  reshapes before and after the call move between the two layouts row by row. The reference side reads its run one
  operation at a time. The idealisation rewrote nothing, so the preservation claim is trivial.
-/
import proofs.«112436_j50757923504330_1_alg».proof.Defs
import proofs.«112436_j50757923504330_1_alg».proof.Proof.Gen.Kernel
import proofs.«112436_j50757923504330_1_alg».proof.Proof.Gen.Kernel.Skeleton
import proofs.«112436_j50757923504330_1_alg».proof.Proof.Gen.Kernel.Launch
import proofs.«112436_j50757923504330_1_alg».proof.Proof.Gen.Kernel.Points
import proofs.«112436_j50757923504330_1_alg».proof.Proof.Gen.Kernel.Frame
import proofs.«112436_j50757923504330_1_alg».proof.Proof.Gen.KernelIdeal
import proofs.«112436_j50757923504330_1_alg».proof.Proof.Gen.KernelIdeal.Skeleton
import proofs.«112436_j50757923504330_1_alg».proof.Proof.Gen.KernelIdeal.Launch
import proofs.«112436_j50757923504330_1_alg».proof.Proof.Gen.KernelIdeal.Points
import proofs.«112436_j50757923504330_1_alg».proof.Proof.Gen.KernelIdeal.Frame
import proofs.«112436_j50757923504330_1_alg».proof.Proof.Gen.ReferenceIdeal
import proofs.«112436_j50757923504330_1_alg».proof.Proof.Gen.Pre_finite_inputs
import proofs.«112436_j50757923504330_1_alg».proof.Proof.Gen.ReferenceIdeal.Run
import proofs.«112436_j50757923504330_1_alg».proof.Proof.Gen.ReferenceIdeal.Read
import proofs.«112436_j50757923504330_1_alg».proof.Proof.KernelValue
import proofs.«112436_j50757923504330_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel terminates without a fault and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result of their (agreeing) argument arrays. -/
theorem algebraic : Cert.algebraic_KernelIdeal_ReferenceIdeal := by
  intro m ρ m' ρ' _ hagree
  refine ⟨fun c => Cert.Mlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6, a7, a8, a9⟩ := hagree c
  rw [Cert.ReferenceIdeal.Read.val_main_v49_eq, Cert.ReferenceIdeal.RefRead.result_eq, a0, a1, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
